-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x200 : Shape := ⟨2, ![16384, 200]⟩
abbrev S200x64 : Shape := ⟨2, ![200, 64]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel
  bcast_S_S200x64 : S_.BroadcastsInDim S200x64 (![] : Fin 0 → Fin S200x64.rank)
  reducesTo_S200x64_S_d0_1 : S200x64.ReducesTo [0, 1] S_

variable [Facts]

def fn {F : FTy → Type} [FloatOps F] (main_arg0 : FVec F S16384x200 .f32) (main_arg1 : FVec F S200x64 .f32) (main_arg2 : FVec F S200x64 .f32) : IVec S_ 1 :=
  let main_v0 : FVec F S16384x200 .f32 := Host.absf main_arg0
  let main_cst : FVec F S_ .f32 := constant S_ .f32 0x7F800000#32
  let main_v1 : FVec F S16384x200 .f32 := broadcastInDim S16384x200 ![] bcast_S_S16384x200 main_cst
  let main_v2 : IVec S16384x200 1 := cmpf .olt main_v0 main_v1
  let main_c : IVec S_ 1 := constantI S_ 1 1#1
  let main_v3 : IVec S_ 1 := (fun x v => Host.reduce IntOp.andi x v reducesTo_S16384x200_S_d0_1 h_S_) main_v2 main_c
  let main_v4 : FVec F S200x64 .f32 := Host.absf main_arg1
  let main_cst_0 : FVec F S_ .f32 := constant S_ .f32 0x7F800000#32
  let main_v5 : FVec F S200x64 .f32 := broadcastInDim S200x64 ![] bcast_S_S200x64 main_cst_0
  let main_v6 : IVec S200x64 1 := cmpf .olt main_v4 main_v5
  let main_c_1 : IVec S_ 1 := constantI S_ 1 1#1
  let main_v7 : IVec S_ 1 := (fun x v => Host.reduce IntOp.andi x v reducesTo_S200x64_S_d0_1 h_S_) main_v6 main_c_1
  let main_v8 : IVec S_ 1 := andi main_v3 main_v7
  let main_v9 : FVec F S200x64 .f32 := Host.absf main_arg2
  let main_cst_2 : FVec F S_ .f32 := constant S_ .f32 0x7F800000#32
  let main_v10 : FVec F S200x64 .f32 := broadcastInDim S200x64 ![] bcast_S_S200x64 main_cst_2
  let main_v11 : IVec S200x64 1 := cmpf .olt main_v9 main_v10
  let main_c_3 : IVec S_ 1 := constantI S_ 1 1#1
  let main_v12 : IVec S_ 1 := (fun x v => Host.reduce IntOp.andi x v reducesTo_S200x64_S_d0_1 h_S_) main_v11 main_c_3
  let main_v13 : IVec S_ 1 := andi main_v8 main_v12
  main_v13
-- ==== Kernel.lean ====
abbrev S16384x200 : Shape := ⟨2, ![16384, 200]⟩
abbrev S200x64 : Shape := ⟨2, ![200, 64]⟩
abbrev S16384x12800 : Shape := ⟨2, ![16384, 12800]⟩
abbrev S128x200 : Shape := ⟨2, ![128, 200]⟩
abbrev S128x12800 : Shape := ⟨2, ![128, 12800]⟩
abbrev S128x200x1 : Shape := ⟨3, ![128, 200, 1]⟩
abbrev S1x200x64 : Shape := ⟨3, ![1, 200, 64]⟩
abbrev S128x200x64 : Shape := ⟨3, ![128, 200, 64]⟩
abbrev S16384x200x64 : Shape := ⟨3, ![16384, 200, 64]⟩

abbrev nBuf : Space → Nat
  | .hbm => 5
  | .vmem => 6
  | .smem => 0
  | _ => 0

abbrev bufTy : (tb : Table) → Fin (tcTables nBuf tb) → BufTy
  | .hbm, ⟨0, _⟩ => ⟨S16384x200, .f32⟩
  | .hbm, ⟨1, _⟩ => ⟨S200x64, .f32⟩
  | .hbm, ⟨2, _⟩ => ⟨S200x64, .f32⟩
  | .hbm, ⟨3, _⟩ => ⟨S16384x12800, .f32⟩
  | .hbm, ⟨4, _⟩ => ⟨S16384x200x64, .f32⟩
  | .local _ .vmem, ⟨0, _⟩ => ⟨S128x200, .f32⟩
  | .local _ .vmem, ⟨1, _⟩ => ⟨S128x200, .f32⟩
  | .local _ .vmem, ⟨2, _⟩ => ⟨S200x64, .f32⟩
  | .local _ .vmem, ⟨3, _⟩ => ⟨S200x64, .f32⟩
  | .local _ .vmem, ⟨4, _⟩ => ⟨S128x12800, .f32⟩
  | .local _ .vmem, ⟨5, _⟩ => ⟨S128x12800, .f32⟩
  | _, _ => ⟨S16384x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S200x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x12800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S128x200_S128x200_0_0 : ∀ a, (![0, 0] : Fin 2 → Nat) a + S128x200.size a ≤ S128x200.size a
  h_S128x200 : 0 < S128x200.numel
  inb_S200x64_S200x64_0_0 : ∀ a, (![0, 0] : Fin 2 → Nat) a + S200x64.size a ≤ S200x64.size a
  h_S200x64 : 0 < S200x64.numel
  shapeCasts_S128x200_S128x200x1 : S128x200.ShapeCasts S128x200x1
  shapeCasts_S200x64_S1x200x64 : S200x64.ShapeCasts S1x200x64
  broadcasts_S128x200x1_S128x200x64 : S128x200x1.Broadcasts S128x200x64
  broadcasts_S1x200x64_S128x200x64 : S1x200x64.Broadcasts S128x200x64
  shapeCasts_S128x200x64_S128x12800 : S128x200x64.ShapeCasts S128x12800
  inb_S128x12800_S128x12800_0_0 : ∀ a, (![0, 0] : Fin 2 → Nat) a + S128x12800.size a ≤ S128x12800.size a
  h_S128x12800 : 0 < S128x12800.numel
  shapeCasts_S16384x12800_S16384x200x64 : S16384x12800.ShapeCasts S16384x200x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x200.size a ≤ S16384x200.size a
  hwx0_0 : ∀ i : grid0.Coords, EltTy.bits .f32 = 32 ∨ (Rect.block (s := S16384x200) S128x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x64.size a ≤ S200x64.size a
  hwx0_1 : ∀ i : grid0.Coords, EltTy.bits .f32 = 32 ∨ (Rect.block (s := S200x64) S200x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S200x64.size a ≤ S200x64.size a
  hwx0_2 : ∀ i : grid0.Coords, EltTy.bits .f32 = 32 ∨ (Rect.block (s := S200x64) S200x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x12800.size a ≤ S16384x12800.size a
  hwx0_3 : ∀ i : grid0.Coords, EltTy.bits .f32 = 32 ∨ (Rect.block (s := S16384x12800) S128x12800.size (cc0_transform_3 i) (hinb0_3 i)).WholeWords (EltTy.packing .f32)

variable [Facts₀]

abbrev win0_0 : Pipeline.Window sig grid0 :=
  Pipeline.Window.ofSpec (Memref.whole main_arg0) S128x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S200x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x12800.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x200 : Shape := ⟨2, ![16384, 200]⟩
abbrev S200x64 : Shape := ⟨2, ![200, 64]⟩
abbrev S16384x200x1 : Shape := ⟨3, ![16384, 200, 1]⟩
abbrev S1x200x64 : Shape := ⟨3, ![1, 200, 64]⟩
abbrev S16384x200x64 : Shape := ⟨3, ![16384, 200, 64]⟩

abbrev nBuf : Space → Nat
  | .hbm => 11
  | .vmem => 0
  | .smem => 0
  | _ => 0

abbrev bufTy : (tb : Table) → Fin (tcTables nBuf tb) → BufTy
  | .hbm, ⟨0, _⟩ => ⟨S16384x200, .f32⟩
  | .hbm, ⟨1, _⟩ => ⟨S200x64, .f32⟩
  | .hbm, ⟨2, _⟩ => ⟨S200x64, .f32⟩
  | .hbm, ⟨3, _⟩ => ⟨S16384x200x1, .f32⟩
  | .hbm, ⟨4, _⟩ => ⟨S1x200x64, .f32⟩
  | .hbm, ⟨5, _⟩ => ⟨S16384x200x64, .f32⟩
  | .hbm, ⟨6, _⟩ => ⟨S16384x200x64, .f32⟩
  | .hbm, ⟨7, _⟩ => ⟨S16384x200x64, .f32⟩
  | .hbm, ⟨8, _⟩ => ⟨S1x200x64, .f32⟩
  | .hbm, ⟨9, _⟩ => ⟨S16384x200x64, .f32⟩
  | .hbm, ⟨10, _⟩ => ⟨S16384x200x64, .f32⟩
  | _, _ => ⟨S16384x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S16384x200_S16384x200x1_0_1 : S16384x200.BroadcastsInDim S16384x200x1 (![0, 1] : Fin 2 → Fin S16384x200x1.rank)
  bcast_S200x64_S1x200x64_1_2 : S200x64.BroadcastsInDim S1x200x64 (![1, 2] : Fin 2 → Fin S1x200x64.rank)
  bcast_S16384x200x1_S16384x200x64_0_1_2 : S16384x200x1.BroadcastsInDim S16384x200x64 (![0, 1, 2] : Fin 3 → Fin S16384x200x64.rank)
  bcast_S1x200x64_S16384x200x64_0_1_2 : S1x200x64.BroadcastsInDim S16384x200x64 (![0, 1, 2] : Fin 3 → Fin S16384x200x64.rank)

variable [Facts₀]

class Facts : Prop extends Facts₀ where

variable [Facts]
-- ==== Proof.Affine.lean ====
/-
  The function both programs compute, with no program in sight: for a table `x` of 16384 rows and 200 features, and two
  tables `W`, `b` of 200 features by 64 embedding coordinates,

      out[r, i, e] = x[r, i] · W[i, e] + b[i, e].

  It is stated twice, over one product and one sum of the float instance `F` (nothing here depends on which): as a
  three-axis array (`out3`, the reference's layout) and with the last two axes merged row-major into one axis of
  12800 = 200 · 64 lanes (`outFlat`, the layout the kernel stores), lane `q` standing for feature `q / 64` and embedding
  coordinate `q % 64`. `out3_eq_flat` says the two are one function under that renaming of indices. No algebraic
  law is used: both programs multiply and add the same operands in the same order, so the equality holds at
  every value, infinite ones included.
-/
import Idealize.ShloMosaic.PureOps
import Idealize.ShloMosaic.Lib.ValueIdx

noncomputable section

namespace Cert.Affine

open Idealize.ShloMosaic Idealize.ShloMosaic.ValueIdx

variable {F : FTy → Type} [FloatOps F]

/-- The feature a lane of the merged axis belongs to: `q / 64`. -/
abbrev feat (q : Fin 12800) : Fin 200 := ⟨q.val / 64, by have := q.isLt; omega⟩
/-- The embedding coordinate of a lane of the merged axis: `q % 64`. -/
abbrev emb (q : Fin 12800) : Fin 64 := ⟨q.val % 64, by omega⟩
/-- The lane of feature `i` and embedding coordinate `e`: `64 · i + e`. -/
abbrev lane (i : Fin 200) (e : Fin 64) : Fin 12800 := ⟨i.val * 64 + e.val, by have := i.isLt; have := e.isLt; omega⟩

theorem feat_lane (i : Fin 200) (e : Fin 64) : feat (lane i e) = i := Fin.ext (by
  show (i.val * 64 + e.val) / 64 = i.val
  have := e.isLt; omega)

theorem emb_lane (i : Fin 200) (e : Fin 64) : emb (lane i e) = e := Fin.ext (by
  show (i.val * 64 + e.val) % 64 = e.val
  have := e.isLt; omega)

/-- One entry of the result from one entry of each table. -/
abbrev entry (a w b : F .f32) : F .f32 := FloatOps.addf (FloatOps.mulf a w) b

/-- `out[r, i, e] = x[r, i] · W[i, e] + b[i, e]` as a three-axis array. -/
def out3 (x : (⟨2, ![16384, 200]⟩ : Shape).Idx → F .f32) (w b : (⟨2, ![200, 64]⟩ : Shape).Idx → F .f32) :
    (⟨3, ![16384, 200, 64]⟩ : Shape).Idx → F .f32 :=
  fun i => entry (x (ix2 (i 0) (i 1))) (w (ix2 (i 1) (i 2))) (b (ix2 (i 1) (i 2)))

/-- The same array with features and embedding coordinates merged into 12800 lanes. -/
def outFlat (x : (⟨2, ![16384, 200]⟩ : Shape).Idx → F .f32) (w b : (⟨2, ![200, 64]⟩ : Shape).Idx → F .f32) :
    (⟨2, ![16384, 12800]⟩ : Shape).Idx → F .f32 :=
  fun j => entry (x (ix2 (j 0) (feat (j 1)))) (w (ix2 (feat (j 1)) (emb (j 1)))) (b (ix2 (feat (j 1)) (emb (j 1))))

/-- The three-axis array at `(r, i, e)` is the merged one at `(r, 64 · i + e)`. -/
theorem out3_eq_flat (x : (⟨2, ![16384, 200]⟩ : Shape).Idx → F .f32) (w b : (⟨2, ![200, 64]⟩ : Shape).Idx → F .f32)
    (r : Fin 16384) (i : Fin 200) (e : Fin 64) :
    out3 x w b (ix3 r i e) = outFlat x w b (ix2 r (lane i e)) := by
  show entry (x (ix2 r i)) (w (ix2 i e)) (b (ix2 i e))
    = entry (x (ix2 r (feat (lane i e)))) (w (ix2 (feat (lane i e)) (emb (lane i e)))) (b (ix2 (feat (lane i e)) (emb (lane i e))))
  rw [feat_lane, emb_lane]

end Cert.Affine

end
-- ==== Proof.Body.lean ====
/-
  What one run of the kernel body stores, entry by entry. The body loads a block of 128 rows of `x` and the whole of
  `W` and `b`, views the block as [128, 200, 1] and each table as [1, 200, 64], broadcasts all three to
  [128, 200, 64], multiplies, adds, and merges the last two axes into 12800 lanes before the one store. Read at row
  `p` and lane `q` the merge undoes itself (lane `q` is feature `q / 64`, embedding coordinate `q % 64`), each
  broadcast reads its operand at the coordinates it keeps, and what is left is `x[p, q / 64] · W[q / 64, q % 64] +
  b[q / 64, q % 64]`. At any float instance.
-/
import proofs.«164862_j20598663151715_2_alg».proof.Proof.Gen.KernelIdeal.Skeleton
import proofs.«164862_j20598663151715_2_alg».proof.Proof.Affine
import Idealize.ShloMosaic.Lib.Pipeline.Value
import Idealize.ShloMosaic.Lib.ValueLayout

noncomputable section

namespace Cert.KernelIdeal.Body

open Idealize.ShloMosaic Idealize.ShloMosaic.ValueIdx Cert.KernelIdeal Cert.KernelIdeal.Gen Cert.Affine

variable {α : Type}

/-- A block of rows viewed with a trailing unit axis and repeated along 64 embedding coordinates reads, at
    `(p, i, e)`, the block at `(p, i)`. -/
theorem rows_bcast_apply (v : S128x200.Idx → α) (h1 : S128x200.ShapeCasts S128x200x1) (h2 : S128x200x1.Broadcasts S128x200x64)
    (p : Fin 128) (i : Fin 200) (e : Fin 64) :
    broadcastTo S128x200x64 (shapeCast S128x200x1 v h1) h2 (ix3 p i e) = v (ix2 p i) := by
  refine (broadcastTo_apply _ h2 (ix3 p i e) (ix3 p i (0 : Fin 1)) fun a => ?_).trans ?_
  · match a with
    | ⟨0, _⟩ => show p.val = if (128 : Nat) = 1 then 0 else p.val; rfl
    | ⟨1, _⟩ => show i.val = if (200 : Nat) = 1 then 0 else i.val; rfl
    | ⟨2, _⟩ => show (0 : Nat) = if (1 : Nat) = 1 then 0 else e.val; rfl
  · exact shapeCast_apply v h1 _ (ix2 p i) (by
      rw [Shape.rowMajor_val_two, Shape.rowMajor_val_three]
      show p.val * 200 + i.val = (p.val * 200 + i.val) * 1 + 0
      omega)

/-- A table viewed with a leading unit axis and repeated along 128 rows reads, at `(p, i, e)`, the table at `(i, e)`. -/
theorem table_bcast_apply (v : S200x64.Idx → α) (h1 : S200x64.ShapeCasts S1x200x64) (h2 : S1x200x64.Broadcasts S128x200x64)
    (p : Fin 128) (i : Fin 200) (e : Fin 64) :
    broadcastTo S128x200x64 (shapeCast S1x200x64 v h1) h2 (ix3 p i e) = v (ix2 i e) := by
  refine (broadcastTo_apply _ h2 (ix3 p i e) (ix3 (0 : Fin 1) i e) fun a => ?_).trans ?_
  · match a with
    | ⟨0, _⟩ => show (0 : Nat) = if (1 : Nat) = 1 then 0 else p.val; rfl
    | ⟨1, _⟩ => show i.val = if (200 : Nat) = 1 then 0 else i.val; rfl
    | ⟨2, _⟩ => show e.val = if (64 : Nat) = 1 then 0 else e.val; rfl
  · exact shapeCast_ab_1ab_apply v h1 (0 : Fin 1) i e

/-- Merging the last two axes: lane `q` of row `p` is the entry at `(p, q / 64, q % 64)`. -/
theorem merge_apply (v : S128x200x64.Idx → α) (h : S128x200x64.ShapeCasts S128x12800) (p : Fin 128) (q : Fin 12800) :
    shapeCast S128x12800 v h (ix2 p q) = v (ix3 p (feat q) (emb q)) :=
  shapeCast_apply v h _ _ (by
    rw [Shape.rowMajor_val_three, Shape.rowMajor_val_two]
    show (p.val * 200 + q.val / 64) * 64 + q.val % 64 = p.val * 12800 + q.val
    omega)

variable {F : FTy → Type} [FloatOps F]

/-- The stored value at row `p`, lane `q`. -/
theorem pay_apply (x0 : Vec F S128x200 .f32) (x1 x2 : Vec F S200x64 .f32) (p : Fin 128) (q : Fin 12800) :
    k0_pay1 x0 x1 x2 (ix2 p q) = entry (x0 (ix2 p (feat q))) (x1 (ix2 (feat q) (emb q))) (x2 (ix2 (feat q) (emb q))) := by
  unfold k0_pay1
  refine (merge_apply _ _ p q).trans ?_
  show FloatOps.addf (FloatOps.mulf (broadcastTo S128x200x64 (shapeCast S128x200x1 x0 _) _ (ix3 p (feat q) (emb q)))
      (broadcastTo S128x200x64 (shapeCast S1x200x64 x1 _) _ (ix3 p (feat q) (emb q))))
      (broadcastTo S128x200x64 (shapeCast S1x200x64 x2 _) _ (ix3 p (feat q) (emb q))) = _
  rw [rows_bcast_apply, table_bcast_apply, table_bcast_apply]

end Cert.KernelIdeal.Body

end
-- ==== Proof.Blocks.lean ====
/-
  From what each grid point writes back to the whole array the region leaves. The grid has 128 points; point `t`
  stages rows `128·t … 128·t + 127` of `x`, the whole of `W` and of `b`, and writes back rows `128·t … 128·t + 127` of
  the merged [16384, 12800] result. So an entry `(r, q)` of the result lies in the block of point `r / 128` and in
  no other, and what that point stores there is the body's value at row `r % 128`, lane `q`: `x[r, q / 64] ·
  W[q / 64, q % 64] + b[q / 64, q % 64]` — the entry of `Affine.outFlat` at `(r, q)`. Since the 128 blocks tile the
  array, the array after the region IS `Affine.outFlat` of the three argument arrays.
-/
import proofs.«164862_j20598663151715_2_alg».proof.Proof.Gen.KernelIdeal.Frame
import proofs.«164862_j20598663151715_2_alg».proof.Proof.Body
import Idealize.ShloMosaic.Lib.Pipeline.Value

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.Affine

variable {F : FTy → Type} [FloatOps F]
variable (m : (ℓ : Loc nD τ sig) → Buf (Elt F) ℓ) (ρ : Dev nD → PrngReg)

theorem origin : (![0, 0] : Fin 2 → Nat) = fun _ => 0 := funext fun a => by fin_cases a <;> rfl

/-- The four index maps at every grid point: the block of rows of `x` and the block of rows of the result are both
    block `t` along the rows and block 0 along the other axis; the two tables are always their one whole block. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- The staged block of `W` is the whole array, at every point. -/
theorem table1_eq (c : Dev nD) (t : Fin cfg0.N) : iblk m c 1 t = V m c main_arg1 := by
  obtain ⟨-, -, e2, e3, -, -, -, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 200 + 1 * (y 0).val = (y 0).val; omega
  | ⟨1, _⟩ => show win0_1.index t (1 : Fin 2) * 64 + 1 * (y 1).val = (y 1).val; omega

/-- The staged block of `b` is the whole array, at every point. -/
theorem table2_eq (c : Dev nD) (t : Fin cfg0.N) : iblk m c 2 t = V m c main_arg2 := by
  obtain ⟨-, -, -, -, e4, e5, -, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 2) * 200 + 1 * (y 0).val = (y 0).val; omega
  | ⟨1, _⟩ => show win0_2.index t (1 : Fin 2) * 64 + 1 * (y 1).val = (y 1).val; omega

/-- The body's value at an entry `y` of a block is `outFlat` at an entry `i` of the array, when the block of rows
    it was computed from holds, in row `y 0`, row `i 0` of `x`, and the two entries are in the same lane. -/
theorem pay_eq_flat (x0 : Vec F S128x200 .f32) (x1 x2 : Vec F S200x64 .f32) (X : S16384x200.Idx → F .f32)
    (y : S128x12800.Idx) (i : S16384x12800.Idx)
    (hrow : ∀ f : Fin 200, x0 (ix2 (y 0) f) = X (ix2 (i 0) f)) (hlane : i 1 = y 1) :
    k0_pay1 x0 x1 x2 y = outFlat X x1 x2 i := by
  obtain ⟨p, q, rfl⟩ : ∃ (p : Fin 128) (q : Fin 12800), y = ix2 p q := ⟨y 0, y 1, eq_ix2 y⟩
  rw [Body.pay_apply]
  show _ = entry (X (ix2 (i 0) (feat (i 1)))) (x1 (ix2 (feat (i 1)) (emb (i 1)))) (x2 (ix2 (feat (i 1)) (emb (i 1))))
  rw [hlane, ← hrow]

/-- WHAT POINT `t` WRITES BACK is block `t` of `outFlat` of the argument arrays as the region finds them. -/
theorem flushed_eq (c : Dev nD) (t : Fin cfg0.N) :
    (dats m 0 c).flushed 3 t
      = ((cfg0.win 3).blk t).view.read (Elt F) (outFlat (V m c main_arg0) (V m c main_arg1) (V m c main_arg2)) := by
  show (cfg0.win 3).cut (grid0.coords t) ((dats m 0 c).after 3 t) = _
  rw [after0_3]
  unfold out0_3
  rw [View.canon_unit_zero origin]
  simp only [View.ld_unit_zero (S := S128x200) origin, View.ld_unit_zero (S := S200x64) origin]
  rw [table1_eq, table2_eq]
  obtain ⟨e0, e1, -, -, -, -, e6, e7⟩ := idx_facts t
  funext j
  show k0_pay1 (iblk m c 0 t) (V m c main_arg1) (V m c main_arg2) j
    = outFlat (V m c main_arg0) (V m c main_arg1) (V m c main_arg2) (((cfg0.win 3).blk t).view.emb j)
  refine pay_eq_flat (iblk m c 0 t) (V m c main_arg1) (V m c main_arg2) (V m c main_arg0) j (((cfg0.win 3).blk t).view.emb j)
    (fun f => ?_) ?_
  · show V m c main_arg0 (((cfg0.win 0).blk t).view.emb (ix2 (j 0) f))
      = V m c main_arg0 (ix2 ((((cfg0.win 3).blk t).view.emb j) 0) f)
    refine congrArg _ (funext fun a => Fin.ext ?_)
    match a with
    | ⟨0, _⟩ => show win0_0.index t (0 : Fin 2) * 128 + 1 * (j 0).val = win0_3.index t (0 : Fin 2) * 128 + 1 * (j 0).val; omega
    | ⟨1, _⟩ => show win0_0.index t (1 : Fin 2) * 200 + 1 * f.val = f.val; omega
  · refine Fin.ext ?_
    show win0_3.index t (1 : Fin 2) * 12800 + 1 * (j 1).val = (j 1).val
    omega

/-- An entry of the merged array is in point `t`'s block iff each coordinate is in the block's range on its axis. -/
theorem mem_blk (t : Fin cfg0.N) (i : S16384x12800.Idx) :
    i ∈ ((cfg0.win 3).blk t).view.set ↔ ∀ a : Fin 2, win0_3.index t a * S128x12800.size a ≤ (i a).val
      ∧ (i a).val < win0_3.index t a * S128x12800.size a + S128x12800.size a := by
  show i ∈ ((View.whole main_v0).slice (win0_3.rect t)).set ↔ _
  rw [View.set_slice_whole, Rect.mem_set_unit]
  exact Iff.rfl

/-- Every entry `(r, q)` is in the block of point `r / 128`, which is written back. -/
theorem cover (i : S16384x12800.Idx) :
    ∃ t : Fin cfg0.N, (cfg0.win 3).flush t = true ∧ i ∈ ((cfg0.win 3).blk t).view.set := by
  have hi0 : (i 0).val < 16384 := (i 0).isLt
  have hi1 : (i 1).val < 12800 := (i 1).isLt
  have hN : (i 0).val / 128 < cfg0.N := lt_of_lt_of_eq (by omega) N_0.symm
  obtain ⟨-, -, -, -, -, -, e6, e7⟩ := idx_facts ⟨(i 0).val / 128, hN⟩
  have e6' : win0_3.index ⟨(i 0).val / 128, hN⟩ (0 : Fin 2) = (i 0).val / 128 := e6
  refine ⟨⟨(i 0).val / 128, hN⟩, flush0_3 _, ?_⟩
  rw [mem_blk]
  intro a
  match a with
  | ⟨0, _⟩ =>
    show win0_3.index ⟨(i 0).val / 128, hN⟩ (0 : Fin 2) * 128 ≤ (i 0).val
      ∧ (i 0).val < win0_3.index ⟨(i 0).val / 128, hN⟩ (0 : Fin 2) * 128 + 128
    omega
  | ⟨1, _⟩ =>
    show win0_3.index ⟨(i 0).val / 128, hN⟩ (1 : Fin 2) * 12800 ≤ (i 1).val
      ∧ (i 1).val < win0_3.index ⟨(i 0).val / 128, hN⟩ (1 : Fin 2) * 12800 + 12800
    omega

/-- THE MERGED ARRAY after the region: `outFlat` of the argument arrays. -/
theorem final (c : Dev nD) : (dats m 0 c).arrAt 3 cfg0.N
    = outFlat (m ((c : Thread nD τ).loc main_arg0)) (m ((c : Thread nD τ).loc main_arg1)) (m ((c : Thread nD τ).loc main_arg2)) :=
  (dats m 0 c).arrAt_eq_of_cover 3 _ (fun t _ => flushed_eq m c t) cover

end Cert.KernelIdeal.Blocks

end
-- ==== Proof.Result.lean ====
/-
  The kernel program's result. After the region @main has one more line: the merged [16384, 12800] array is
  reshaped to [16384, 200, 64], row-major, so entry `(r, i, e)` of the result is entry `(r, 64 · i + e)` of the
  merged array — which is `x[r, i] · W[i, e] + b[i, e]` (`Affine.out3_eq_flat`). `run` restates the program's run with
  the result named: `Affine.out3` of the argument arrays, the arguments unchanged.
-/
import proofs.«164862_j20598663151715_2_alg».proof.Proof.Blocks
import Idealize.ShloMosaic.Lib.StableHlo.Run

set_option maxRecDepth 16384

noncomputable section

namespace Cert.KernelIdeal.Result

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.Affine

variable {F : FTy → Type} [FloatOps F]
variable (m : (ℓ : Loc nD τ sig) → Buf (Elt F) ℓ) (ρ : Dev nD → PrngReg)

/-- The reshape of the merged array reads, at `(r, i, e)`, the merged array at `(r, 64 · i + e)`. -/
theorem unmerge_apply {α : Type} (v : S16384x12800.Idx → α) (h : S16384x12800.ShapeCasts S16384x200x64)
    (r : Fin 16384) (i : Fin 200) (e : Fin 64) :
    shapeCast S16384x200x64 v h (ix3 r i e) = v (ix2 r (lane i e)) :=
  shapeCast_apply v h _ _ (by
    rw [Shape.rowMajor_val_two, Shape.rowMajor_val_three]
    show r.val * 12800 + (i.val * 64 + e.val) = (r.val * 200 + i.val) * 64 + e.val
    omega)

/-- What @main's last line leaves in the result buffer: `out3` of the argument arrays. -/
theorem tail_eq (c : Dev nD) :
    Pipeline.afterTail₀ cfgs (dats m) 0 (V0 m) [hostOps1] c main_v1
      = out3 (m ((c : Thread nD τ).loc main_arg0)) (m ((c : Thread nD τ).loc main_arg1)) (m ((c : Thread nD τ).loc main_arg2)) := by
  unfold Pipeline.afterTail₀
  show StableHlo.after hostOps1 _ (Proc.devRef .tc main_v1) = _
  after_results
  funext j
  obtain ⟨r, i, e, rfl⟩ : ∃ (r : Fin 16384) (i : Fin 200) (e : Fin 64), j = ix3 r i e := ⟨j 0, j 1, j 2, eq_ix3 j⟩
  rw [out3_eq_flat]
  refine (unmerge_apply _ _ r i e).trans ?_
  refine (congrFun ((Pipeline.withArrays_arr spec0 launch0.win.arr_inj c _ _ 3).trans (Blocks.final m c)) _)

/-- The result buffer is no array of the pipeline and is not scoped: after the run it holds what @main's last line wrote. -/
theorem result_rest : main_v1 ∈ Pipeline.restRefs sig (cfgs 0).spec :=
  Pipeline.mem_restRefs_of main_v1 rfl (by decide)

/-- THE RUN, with the result named: every weakly fair execution of the kernel program terminates with the result
    buffer at `out3` of the argument arrays and the arguments unchanged. -/
theorem run : θ_run defs (onTc (τ := τ) (main (F := F))) ⟨m, fun _ => 0, ρ⟩ fun r => ∀ c : Dev nD,
      r.2.mem ((c.tc : Thread nD τ).loc main_v1)
        = out3 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v1 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Result

end
-- ==== Proof.RefValue.lean ====
/-
  The reference, read entry by entry. It broadcasts `x` to [16384, 200, 1] and then along 64 embedding coordinates,
  broadcasts `W` and `b` to [1, 200, 64] and then along the 16384 rows, multiplies and adds. At `(r, i, e)` the
  first chain reads `x[r, i]`, the other two `W[i, e]` and `b[i, e]`: the result is `Affine.out3`.
-/
import proofs.«164862_j20598663151715_2_alg».proof.Proof.Gen.ReferenceIdeal.Read
import proofs.«164862_j20598663151715_2_alg».proof.Proof.Affine

noncomputable section

namespace Cert.ReferenceIdeal.RefValue

open Idealize.ShloMosaic Idealize.ShloMosaic.ValueIdx
open Cert.ReferenceIdeal Cert.ReferenceIdeal.Read Cert.Affine

variable {F : FTy → Type} [FloatOps F]

/-- Through both broadcasts of `x`, entry `(r, i, e)` reads `x` at `(r, i)`. -/
theorem idx_x (i : S16384x200x64.Idx) : idx_main_v0 (idx_main_v2 i) = ix2 (i 0) (i 1) :=
  funext fun a => by match a with | ⟨0, _⟩ => rfl | ⟨1, _⟩ => rfl

/-- Through both broadcasts of `W`, entry `(r, i, e)` reads `W` at `(i, e)`. -/
theorem idx_w (i : S16384x200x64.Idx) : idx_main_v1 (idx_main_v3 i) = ix2 (i 1) (i 2) :=
  funext fun a => by match a with | ⟨0, _⟩ => rfl | ⟨1, _⟩ => rfl

/-- Through both broadcasts of `b`, entry `(r, i, e)` reads `b` at `(i, e)`. -/
theorem idx_b (i : S16384x200x64.Idx) : idx_main_v5 (idx_main_v6 i) = ix2 (i 1) (i 2) :=
  funext fun a => by match a with | ⟨0, _⟩ => rfl | ⟨1, _⟩ => rfl

/-- The reference's result is `out3` of its three arguments. -/
theorem ref_eq (x0 : S16384x200.Idx → F .f32) (x1 x2 : S200x64.Idx → F .f32) :
    val_main_v7 (F := F) x0 x1 x2 = out3 x0 x1 x2 := by
  funext i
  rw [val_main_v7_apply, val_main_v4_apply, val_main_v2_apply, val_main_v0_apply, val_main_v3_apply, val_main_v1_apply,
    val_main_v6_apply, val_main_v5_apply, idx_x, idx_w, idx_b]
  rfl

end Cert.ReferenceIdeal.RefValue

end
-- ==== Proof.lean ====
/-
  The certificate of a per-feature affine embedding: from a table `x` of 16384 rows by 200 features and two tables `W`,
  `b` of 200 features by 64 embedding coordinates, both programs compute

      out[r, i, e] = x[r, i] · W[i, e] + b[i, e].

  The reference does it with broadcasts over the whole [16384, 200, 64] array. The kernel does it 128 rows at a
  time, stores each block of rows with the feature and embedding axes merged into 12800 lanes, and reshapes the
  merged array back after the region. Both multiply and add the same operands in the same order at every entry,
  so the two results are the same function of the arguments at every value of the extended reals — no algebraic
  law and no finiteness are used.

  The modules: `Affine` (the function, in both layouts), `Body` (what one run of the kernel body stores, entry by
  entry), `Blocks` (the 128 written-back blocks tile the merged array), `Result` (the reshape after the region, and
  the kernel program's run with its result named), `RefValue` (the reference's result is the same function). Here:
  the three frames, the empty idealization ledger, and the two runs joined.
-/
import proofs.«164862_j20598663151715_2_alg».proof.Defs
import proofs.«164862_j20598663151715_2_alg».proof.Proof.Gen.Kernel
import proofs.«164862_j20598663151715_2_alg».proof.Proof.Gen.Kernel.Skeleton
import proofs.«164862_j20598663151715_2_alg».proof.Proof.Gen.Kernel.Launch
import proofs.«164862_j20598663151715_2_alg».proof.Proof.Gen.Kernel.Points
import proofs.«164862_j20598663151715_2_alg».proof.Proof.Gen.Kernel.Frame
import proofs.«164862_j20598663151715_2_alg».proof.Proof.Gen.KernelIdeal
import proofs.«164862_j20598663151715_2_alg».proof.Proof.Gen.KernelIdeal.Skeleton
import proofs.«164862_j20598663151715_2_alg».proof.Proof.Gen.KernelIdeal.Launch
import proofs.«164862_j20598663151715_2_alg».proof.Proof.Gen.KernelIdeal.Points
import proofs.«164862_j20598663151715_2_alg».proof.Proof.Gen.KernelIdeal.Frame
import proofs.«164862_j20598663151715_2_alg».proof.Proof.Gen.ReferenceIdeal
import proofs.«164862_j20598663151715_2_alg».proof.Proof.Gen.ReferenceIdeal.Run
import proofs.«164862_j20598663151715_2_alg».proof.Proof.Gen.ReferenceIdeal.Read
import proofs.«164862_j20598663151715_2_alg».proof.Proof.Gen.Pre_finite_inputs
import proofs.«164862_j20598663151715_2_alg».proof.Proof.Result
import proofs.«164862_j20598663151715_2_alg».proof.Proof.RefValue
import Idealize.ShloMosaic.Adequacy
import Idealize.ShloMosaic.Init

noncomputable section

namespace Cert.Proof

open Idealize.ShloMosaic Idealize.SL.Sem

/-- The word-level kernel program runs and leaves its arguments as they were. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference runs and leaves its arguments as they were: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading over the extended reals. -/
theorem preserves : Cert.preserves_Kernel_KernelIdeal := trivial

/-- From memories that agree on `x`, `W` and `b`, both programs end with `x[r, i] · W[i, e] + b[i, e]` at every entry. -/
theorem algebraic : Cert.algebraic_KernelIdeal_ReferenceIdeal := by
  intro m ρ m' ρ' _ hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
